-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩

abbrev nBuf : Space → Nat
  | .hbm => 43
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S128x128, .bf16⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000x128, .f32⟩
  | .hbm, ⟨37, _⟩ => ⟨S_, .f32⟩
  | .hbm, ⟨38, _⟩ => ⟨S100000x128, .f32⟩
  | .hbm, ⟨39, _⟩ => ⟨S1700000x1, .i32⟩
  | .hbm, ⟨40, _⟩ => ⟨S100000x128, .f32⟩
  | .hbm, ⟨41, _⟩ => ⟨S1x128, .f32⟩
  | .hbm, ⟨42, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x128, .i1⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Products.lean ====
/-
  The two matrix products read at an entry.

  The kernel multiplies a block of 5000 rows of x by the whole of W into a zero accumulator; the reference multiplies
  all of x by W in one contraction.  Over the extended reals both are the plain sum over the contracted axis: the entry
  (p, q) is the sum over k of the left factor's (p, k) times the right factor's (k, q).  The contraction index is a
  one-axis index; the sums below are re-indexed by that axis' coordinate k in Fin 128.
-/
import proofs.«111637_j953482739902_2_alg».proof.Proof.Gen.KernelIdeal
import proofs.«111637_j953482739902_2_alg».proof.Proof.Gen.ReferenceIdeal
import Idealize.ShloMosaic.PureOps.Ideal.Laws
import Idealize.ShloMosaic.Lib.ValueIdx

noncomputable section

namespace Cert.Gcn.Products

open Idealize.ShloMosaic Idealize.ShloMosaic.ValueIdx

section block
open Cert.KernelIdeal

theorem block_lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem block_lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem block_rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem block_rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The contraction's sum over its one axis, re-indexed by that axis' coordinate: the entry (p, q) of the product is
    the sum over k of the left factor's (p, k) times the right factor's (k, q). -/
theorem block_sum {φ₁ φ₂ : FTy} (l : FVec Ideal S5000x128 φ₁) (r : FVec Ideal S128x128 φ₂) (p : Fin 5000) (q : Fin 128) :
    (∑ k : dot_S5000x128_S128x128_S5000x128_1_0_0_1_n_n.contr.Idx, l (dot_S5000x128_S128x128_S5000x128_1_0_0_1_n_n.lhsIdx (ix2 p q) k) * r (dot_S5000x128_S128x128_S5000x128_1_0_0_1_n_n.rhsIdx (ix2 p q) k))
      = ∑ k : Fin 128, l (ix2 p k) * r (ix2 k q) := by
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact block_lhs0 _ _
    | ⟨1, _⟩ => exact (block_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (block_rhs0 _ _).trans hk
    | ⟨1, _⟩ => exact block_rhs1 _ _)
  rw [el, er]
end block

section whole
open Cert.ReferenceIdeal

theorem whole_lhs0 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem whole_lhs1 (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem whole_rhs0 (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem whole_rhs1 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The contraction's sum over its one axis, re-indexed by that axis' coordinate: the entry (p, q) of the product is
    the sum over k of the left factor's (p, k) times the right factor's (k, q). -/
theorem whole_sum {φ₁ φ₂ : FTy} (l : FVec Ideal S100000x128 φ₁) (r : FVec Ideal S128x128 φ₂) (p : Fin 100000) (q : Fin 128) :
    (∑ k : dot_S100000x128_S128x128_S100000x128_1_0_0_1_n_n.contr.Idx, l (dot_S100000x128_S128x128_S100000x128_1_0_0_1_n_n.lhsIdx (ix2 p q) k) * r (dot_S100000x128_S128x128_S100000x128_1_0_0_1_n_n.rhsIdx (ix2 p q) k))
      = ∑ k : Fin 128, l (ix2 p k) * r (ix2 k q) := by
  rw [← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k := funext fun a => Fin.ext (by
    match a with
    | ⟨0, _⟩ => exact whole_lhs0 _ _
    | ⟨1, _⟩ => exact (whole_lhs1 _ _).trans hk)
  have er : dot_S100000x128_S128x128_S100000x128_1_0_0_1_n_n.rhsIdx (ix2 p q) ((contrEquiv1 dot_S100000x128_S128x128_S100000x128_1_0_0_1_n_n 128 rfl rfl).symm k) = ix2 k q := funext fun a => Fin.ext (by
    match a with
    | ⟨0, _⟩ => exact (whole_rhs0 _ _).trans hk
    | ⟨1, _⟩ => exact whole_rhs1 _ _)
  rw [el, er]
end whole

open Cert.KernelIdeal in
/-- The kernel's block product into a zero accumulator, at an entry. -/
theorem block_product_apply {φ₁ φ₂ : FTy} (l : FVec Ideal S5000x128 φ₁) (r : FVec Ideal S128x128 φ₂) (p : Fin 5000) (q : Fin 128) :
    (matmul dot_S5000x128_S128x128_S5000x128_1_0_0_1_n_n none l r (constant S5000x128 .f32 0x00000000#32) : FVec Ideal S5000x128 .f32) (ix2 p q)
      = ∑ k : Fin 128, l (ix2 p k) * r (ix2 k q) :=
  (Ideal.matmul_constant_zero_apply dot_S5000x128_S128x128_S5000x128_1_0_0_1_n_n none l r (ix2 p q)).trans (block_sum l r p q)

open Cert.ReferenceIdeal in
/-- The reference's whole product, at an entry. -/
theorem whole_product_apply {φ₁ φ₂ : FTy} (l : FVec Ideal S100000x128 φ₁) (r : FVec Ideal S128x128 φ₂) (p : Fin 100000) (q : Fin 128) :
    (Host.dotGeneral dot_S100000x128_S128x128_S100000x128_1_0_0_1_n_n none l r : FVec Ideal S100000x128 .f32) (ix2 p q)
      = ∑ k : Fin 128, l (ix2 p k) * r (ix2 k q) :=
  (Ideal.dotGeneral_apply dot_S100000x128_S128x128_S100000x128_1_0_0_1_n_n none .single l r (ix2 p q)).trans (whole_sum l r p q)

end Cert.Gcn.Products

end
-- ==== Proof.Scalars.lean ====
/-
  The scalar mathematics of the equivalence, over the extended reals.

  1. The activation x · tanh (softplus x), with softplus x written max x 0 + log (1 + exp (-|x - 0|)) behind a test
     "x - 0 differs from itself" that no extended real passes.  The kernel writes the exponent as 0 - |x - 0| and the
     reference as the negation of |x - 0|; these are one function.
  2. The degree normalisation d = (if deg > 0 then 1/sqrt deg else 0) is, whatever the extended real deg, a
     non-negative number that is not +infinity: a positive real has a positive real inverse root, +infinity has 0.
  3. A factor that is non-negative and not +infinity distributes over any finite sum of extended reals, and over the
     sum put on top of a start value.
-/
import Idealize.ShloMosaic.PureOps.Ideal
import Idealize.ShloMosaic.PureOps.Ideal.Laws
import Mathlib.Data.EReal.Operations

noncomputable section

namespace Cert.Gcn

open Idealize.ShloMosaic

/-- The float zero's pattern read as an extended real. -/
abbrev Z32 : EReal := Ideal.ofBits .f32 0x00000000#32

theorem Z32_eq : Z32 = 0 := Ideal.ofBits_zero_f32

/-- The activation of one value as the kernel computes it. -/
def actK (v : EReal) : EReal :=
  v * Ideal.tanh (Scalar.select (Ideal.cmp .one (v - Z32) (v - Z32)) (v + Z32)
    (max v Z32 + Ideal.log1p (Ideal.exp (Z32 - max (v - Z32) (-(v - Z32))))))

/-- The activation of one value as the reference computes it. -/
def actR (v : EReal) : EReal :=
  v * Ideal.tanh (Scalar.select (Ideal.cmp .une (v - Z32) (v - Z32)) (v + Z32)
    (max v Z32 + Ideal.log1p (Ideal.exp (-(max (v - Z32) (-(v - Z32)))))))

/-- The two are one function: the two tests are the same test, and 0 - y = -y. -/
theorem actK_eq_actR (v : EReal) : actK v = actR v := by
  unfold actK actR
  have h1 : Ideal.cmp .one (v - Z32) (v - Z32) = Ideal.cmp .une (v - Z32) (v - Z32) := rfl
  have h2 : Z32 - max (v - Z32) (-(v - Z32)) = -(max (v - Z32) (-(v - Z32))) := by
    rw [Z32_eq, sub_eq_add_neg, zero_add]
  rw [h1, h2]

/-- The normalisation of one degree: the inverse root where the degree is positive, else zero. -/
def dnorm (deg : EReal) : EReal :=
  Scalar.select (Ideal.cmp .ogt deg Z32) (Ideal.rsqrt deg) Z32

/-- Whatever the degree, its normalisation is non-negative and not +infinity. -/
theorem dnorm_bounds (deg : EReal) : 0 ≤ dnorm deg ∧ dnorm deg ≠ ⊤ := by
  unfold dnorm Scalar.select Ideal.cmp
  simp only [Z32_eq]
  by_cases h : (0 : EReal) < deg
  · rw [if_pos (by simp [h])]
    induction deg using EReal.rec with
    | bot => exact absurd h (by simp)
    | top =>
      have e : Ideal.rsqrt (⊤ : EReal) = 0 := rfl
      rw [e]
      exact ⟨le_refl _, by simp⟩
    | coe r =>
      have hr : 0 < r := by exact_mod_cast h
      have e : Ideal.rsqrt (r : EReal) = (((Real.sqrt r)⁻¹ : ℝ) : EReal) := by
        show (if r < 0 then (⊥ : EReal) else if r = 0 then ⊤ else (((Real.sqrt r)⁻¹ : ℝ) : EReal)) = _
        rw [if_neg (not_lt.mpr hr.le), if_neg hr.ne']
      rw [e]
      exact ⟨by exact_mod_cast (inv_nonneg.mpr (Real.sqrt_nonneg r)), EReal.coe_ne_top _⟩
  · rw [if_neg (by simp [h])]
    exact ⟨le_refl _, by simp⟩

/-- A factor that is non-negative and not +infinity distributes over a finite sum. -/
theorem sum_mul_of_bounds {ι : Type} (s : Finset ι) (f : ι → EReal) (D : EReal) (h0 : 0 ≤ D) (ht : D ≠ ⊤) :
    (∑ i ∈ s, f i) * D = ∑ i ∈ s, f i * D := by
  classical
  induction s using Finset.induction_on with
  | empty => simp
  | insert a s ha ih =>
    rw [Finset.sum_insert ha, Finset.sum_insert ha, EReal.right_distrib_of_nonneg_of_ne_top h0 ht, ih]

/-- The same with the sum put on top of a zero start value, as an accumulating scatter into zeros leaves it. -/
theorem zero_add_sum_mul {ι : Type} (s : Finset ι) (f : ι → EReal) (D : EReal) (h0 : 0 ≤ D) (ht : D ≠ ⊤) :
    (Z32 + ∑ i ∈ s, f i) * D = Z32 + ∑ i ∈ s, f i * D := by
  rw [Z32_eq, zero_add, zero_add, sum_mul_of_bounds s f D h0 ht]

end Cert.Gcn

end
-- ==== Proof.LibColumn.lean ====
/-
  Two layout operations read at an index, for a column kept as a trailing unit axis (a row statistic `[a]` carried as
  `[a, 1]` and spread over the `b` entries of each row), in the style of the library's `shapeCast_a_1a_apply` and
  `broadcastTo_1b_ab_apply`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelBody.lean ====
/-
  What the two kernel bodies store, entry by entry, from the blocks they load.

  First kernel: from a block X of 5000 rows of x, the whole of W and the block's column D of normalisations, it stores
  (X · W) with row p scaled by D p: entry (p, q) is (sum over k of X(p,k) · W(k,q)) · D(p).  The change of format on
  X and W is the identity over the extended reals.

  Second kernel: from a block A of accumulated rows, the same column D and the one row B of biases, it stores the
  activation of A(p,q) · D(p) + B(q).
-/
import proofs.«111637_j953482739902_2_alg».proof.Proof.Gen.KernelIdeal.Skeleton
import proofs.«111637_j953482739902_2_alg».proof.Proof.Products
import proofs.«111637_j953482739902_2_alg».proof.Proof.Scalars
import proofs.«111637_j953482739902_2_alg».proof.Proof.LibColumn
import Idealize.ShloMosaic.Lib.Pipeline.Value
import Idealize.ShloMosaic.Lib.ValueLayout

noncomputable section

namespace Cert.KernelIdeal.Body

open Idealize.ShloMosaic Idealize.ShloMosaic.ValueIdx Cert.KernelIdeal Cert.Gcn
open Cert.KernelIdeal.Facts₀ Cert.KernelIdeal.Facts

/-! ## First kernel -/

/-- The product part of the first kernel's stored value. -/
def prod0 (x0 : Vec Ideal S5000x128 .f32) (x1 : Vec Ideal S128x128 .bf16) : FVec Ideal S5000x128 .f32 :=
  matmul dot_S5000x128_S128x128_S5000x128_1_0_0_1_n_n none (truncf .bf16 x0 bitsLt_bf16_f32 : FVec Ideal S5000x128 .bf16)
    (shapeCast S128x128 x1 shapeCasts_S128x128_S128x128 : FVec Ideal S128x128 .bf16) (constant S5000x128 .f32 0x00000000#32)

/-- The scale part: the column of normalisations spread over each row's 128 entries. -/
def scale0 (x2 : Vec Ideal S5000x1 .f32) : FVec Ideal S5000x128 .f32 :=
  broadcastTo S5000x128 (shapeCast S5000x1 x2 shapeCasts_S5000x1_S5000x1) broadcasts_S5000x1_S5000x128

theorem pay0_eq (x0 : Vec Ideal S5000x128 .f32) (x1 : Vec Ideal S128x128 .bf16) (x2 : Vec Ideal S5000x1 .f32) (j : S5000x128.Idx) :
    Gen.k0_pay1 x0 x1 x2 j = prod0 x0 x1 j * scale0 x2 j := rfl

theorem prod0_apply (x0 : Vec Ideal S5000x128 .f32) (x1 : Vec Ideal S128x128 .bf16) (p : Fin 5000) (q : Fin 128) :
    prod0 x0 x1 (ix2 p q) = ∑ k : Fin 128, x0 (ix2 p k) * x1 (ix2 k q) := by
  unfold prod0
  refine (Products.block_product_apply _ _ p q).trans ?_
  rw [shapeCast_self]
  rfl

theorem scale0_apply (x2 : Vec Ideal S5000x1 .f32) (p : Fin 5000) (q : Fin 128) :
    scale0 x2 (ix2 p q) = x2 (ix2 p (0 : Fin 1)) := by
  unfold scale0
  rw [shapeCast_self]
  exact Cert.LibColumn.broadcastTo_a1_ab_apply x2 _ p q

/-- The first kernel's stored block at (p, q). -/
theorem pay0_apply (x0 : Vec Ideal S5000x128 .f32) (x1 : Vec Ideal S128x128 .bf16) (x2 : Vec Ideal S5000x1 .f32)
    (p : Fin 5000) (q : Fin 128) :
    Gen.k0_pay1 x0 x1 x2 (ix2 p q) = (∑ k : Fin 128, x0 (ix2 p k) * x1 (ix2 k q)) * x2 (ix2 p (0 : Fin 1)) := by
  rw [pay0_eq, prod0_apply, scale0_apply]

/-! ## Second kernel -/

/-- The value the activation is applied to: the accumulated block scaled row by row, plus the bias row. -/
def pre1 (x0 : Vec Ideal S5000x128 .f32) (x1 : Vec Ideal S5000x1 .f32) (x2 : Vec Ideal S1x128 .f32) : FVec Ideal S5000x128 .f32 :=
  addf (mulf (shapeCast S5000x128 x0 shapeCasts_S5000x128_S5000x128)
      (broadcastTo S5000x128 (shapeCast S5000x1 x1 shapeCasts_S5000x1_S5000x1) broadcasts_S5000x1_S5000x128))
    (broadcastTo S5000x128 (shapeCast S1x128 x2 shapeCasts_S1x128_S1x128) broadcasts_S1x128_S5000x128)

theorem pay1_eq (x0 : Vec Ideal S5000x128 .f32) (x1 : Vec Ideal S5000x1 .f32) (x2 : Vec Ideal S1x128 .f32) (j : S5000x128.Idx) :
    Gen.k1_pay1 x0 x1 x2 j = actK (pre1 x0 x1 x2 j) := rfl

theorem pre1_apply (x0 : Vec Ideal S5000x128 .f32) (x1 : Vec Ideal S5000x1 .f32) (x2 : Vec Ideal S1x128 .f32)
    (p : Fin 5000) (q : Fin 128) :
    pre1 x0 x1 x2 (ix2 p q) = x0 (ix2 p q) * x1 (ix2 p (0 : Fin 1)) + x2 (ix2 (0 : Fin 1) q) := by
  unfold pre1
  rw [shapeCast_self, shapeCast_self, shapeCast_self]
  show x0 (ix2 p q) * (broadcastTo S5000x128 x1 broadcasts_S5000x1_S5000x128) (ix2 p q)
      + (broadcastTo S5000x128 x2 broadcasts_S1x128_S5000x128) (ix2 p q) = _
  rw [Cert.LibColumn.broadcastTo_a1_ab_apply x1 _ p q, broadcastTo_1b_ab_apply x2 _ p q]

/-- The second kernel's stored block at (p, q). -/
theorem pay1_apply (x0 : Vec Ideal S5000x128 .f32) (x1 : Vec Ideal S5000x1 .f32) (x2 : Vec Ideal S1x128 .f32)
    (p : Fin 5000) (q : Fin 128) :
    Gen.k1_pay1 x0 x1 x2 (ix2 p q) = actK (x0 (ix2 p q) * x1 (ix2 p (0 : Fin 1)) + x2 (ix2 (0 : Fin 1) q)) := by
  rw [pay1_eq, pre1_apply]

end Cert.KernelIdeal.Body

end
-- ==== Proof.KernelBlocks.lean ====
/-
  From blocks to whole arrays: what each kernel leaves in its output array, as one function of the arrays it reads.

  Both kernels run over 20 grid points; point t reads rows [5000 t, 5000 t + 5000) of its row-blocked operands (and the
  whole of W, or the one bias row, at every point) and writes back the same rows of its output.  The blocks tile the
  100000 rows, so after the run the output array is one entry-by-entry function of the input arrays:

    first kernel   out (r, q) = (sum over k of x (r, k) · W (k, q)) · d (r, 0)
    second kernel  out (r, q) = activation (a (r, q) · d (r, 0) + b (0, q))

  whatever the arrays hold when the kernel is entered.
-/
import proofs.«111637_j953482739902_2_alg».proof.Proof.Gen.KernelIdeal.Frame
import proofs.«111637_j953482739902_2_alg».proof.Proof.KernelBody
import Idealize.ShloMosaic.Lib.Pipeline.Value

set_option maxRecDepth 16384

noncomputable section

namespace Cert.KernelIdeal.Blocks

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## The first kernel -/

/-- The first kernel's output as a function of x, W and the column of normalisations. -/
def G0 (x : S100000x128.Idx → Elt Ideal .f32) (w : S128x128.Idx → Elt Ideal .bf16) (d : S100000x1.Idx → Elt Ideal .f32) :
    S100000x128.Idx → Elt Ideal .f32 :=
  fun i => (∑ k : Fin 128, x (ix2 (i 0 : Fin 100000) k) * w (ix2 k (i 1 : Fin 128))) * d (ix2 (i 0 : Fin 100000) (0 : Fin 1))

/-- The index maps over the grid: the row-blocked windows move together, block t at rows from 5000 t; W stays. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 19 :=
  (by decide +kernel : ∀ t : Fin grid0.N, _)

/-- Every block of rows is some point's. -/
theorem idx_onto0 : ∀ q0 : Fin 20, ∃ t : Fin cfg0.N, win0_3.index t = ![q0.val, 0] :=
  (by decide +kernel : ∀ q0 : Fin 20, ∃ t : Fin grid0.N, win0_3.index t = ![q0.val, 0])

/-- Point t's block of x at (p, k) is x at row 5000 t + p. -/
theorem read0_x (c : Dev nD) (t : Fin cfg0.N) (p : Fin 5000) (k : Fin 128) (r : Fin 100000)
    (hr : r.val = win0_3.index t (0 : Fin 2) * 5000 + p.val) :
    iblk0 V c 0 t (ix2 p k) = V c main_arg0 (ix2 r k) := by
  show V c main_arg0 (((cfg0.win 0).blk t).view.emb (ix2 p k)) = V c main_arg0 (ix2 r k)
  refine congrArg (V c main_arg0) (funext fun a => Fin.ext ?_)
  obtain ⟨e00, e01, e10, e11, e20, e21, e31, e30⟩ := idx_facts0 t
  match a with
  | ⟨0, _⟩ => show win0_0.index t (0 : Fin 2) * 5000 + 1 * p.val = r.val; omega
  | ⟨1, _⟩ => show win0_0.index t (1 : Fin 2) * 128 + 1 * k.val = k.val; omega

/-- Every point's block of W is W. -/
theorem read0_w (c : Dev nD) (t : Fin cfg0.N) (k : Fin 128) (q : Fin 128) :
    iblk0 V c 1 t (ix2 k q) = V c main_v16 (ix2 k q) := by
  show V c main_v16 (((cfg0.win 1).blk t).view.emb (ix2 k q)) = V c main_v16 (ix2 k q)
  refine congrArg (V c main_v16) (funext fun a => Fin.ext ?_)
  obtain ⟨e00, e01, e10, e11, e20, e21, e31, e30⟩ := idx_facts0 t
  match a with
  | ⟨0, _⟩ => show win0_1.index t (0 : Fin 2) * 128 + 1 * k.val = k.val; omega
  | ⟨1, _⟩ => show win0_1.index t (1 : Fin 2) * 128 + 1 * q.val = q.val; omega

/-- Point t's block of the normalisation column at (p, 0) is the column at row 5000 t + p. -/
theorem read0_d (c : Dev nD) (t : Fin cfg0.N) (p : Fin 5000) (r : Fin 100000)
    (hr : r.val = win0_3.index t (0 : Fin 2) * 5000 + p.val) :
    iblk0 V c 2 t (ix2 p (0 : Fin 1)) = V c main_v15 (ix2 r (0 : Fin 1)) := by
  show V c main_v15 (((cfg0.win 2).blk t).view.emb (ix2 p (0 : Fin 1))) = V c main_v15 (ix2 r (0 : Fin 1))
  refine congrArg (V c main_v15) (funext fun a => Fin.ext ?_)
  obtain ⟨e00, e01, e10, e11, e20, e21, e31, e30⟩ := idx_facts0 t
  match a with
  | ⟨0, _⟩ => show win0_2.index t (0 : Fin 2) * 5000 + 1 * p.val = r.val; omega
  | ⟨1, _⟩ => show win0_2.index t (1 : Fin 2) * 1 + 1 * 0 = 0; omega

/-- WHAT POINT t WRITES BACK is block t of the whole-array function of the arrays as the kernel finds them. -/
theorem flushed0 (c : Dev nD) (t : Fin cfg0.N) :
    (dat0 V c).flushed 3 t = ((cfg0.win 3).blk t).view.read (Elt Ideal) (G0 (V c main_arg0) (V c main_v16) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
      = G0 (V c main_arg0) (V c main_v16) (V c main_v15) (((cfg0.win 3).blk t).view.emb (ix2 p q))
  refine (Body.pay0_apply (iblk0 V c 0 t) (iblk0 V c 1 t) (iblk0 V c 2 t) p q).trans ?_
  obtain ⟨e00, e01, e10, e11, e20, e21, e31, e30⟩ := idx_facts0 t
  have hr : ((((cfg0.win 3).blk t).view.emb (ix2 p q)) 0 : Fin 100000).val = win0_3.index t (0 : Fin 2) * 5000 + p.val := by
    show win0_3.index t (0 : Fin 2) * 5000 + 1 * p.val = _; omega
  have hq : (((cfg0.win 3).blk t).view.emb (ix2 p q)) 1 = (q : Fin 128) := Fin.ext (by
    show win0_3.index t (1 : Fin 2) * 128 + 1 * q.val = q.val; omega)
  unfold G0
  rw [hq]
  exact congrArg₂ (· * ·)
    (Finset.sum_congr rfl fun k _ => congrArg₂ (· * ·) (read0_x V c t p k _ hr) (read0_w V c t k q))
    (read0_d V c t p _ hr)

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v17).slice (win0_3.rect t)).set ↔ _
  rw [View.set_slice_whole, Rect.mem_set_unit]
  exact Iff.rfl

/-- The blocks cover the array: row r is in the block of point r / 5000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE FIRST KERNEL'S OUTPUT ARRAY after its run. -/
theorem final0 (c : Dev nD) :
    (dat0 V c).arrAt 3 cfg0.N = G0 (V c main_arg0) (V c main_v16) (V c main_v15) :=
  (dat0 V c).arrAt_eq_of_cover 3 (G0 (V c main_arg0) (V c main_v16) (V c main_v15)) (fun t _ => flushed0 V c t) cover0

/-! ## The second kernel -/

/-- The second kernel's output as a function of the accumulated rows, the column of normalisations and the bias row. -/
def G1 (a : S100000x128.Idx → Elt Ideal .f32) (d : S100000x1.Idx → Elt Ideal .f32) (b : S1x128.Idx → Elt Ideal .f32) :
    S100000x128.Idx → Elt Ideal .f32 :=
  fun i => actK (a (ix2 (i 0 : Fin 100000) (i 1 : Fin 128)) * d (ix2 (i 0 : Fin 100000) (0 : Fin 1)) + b (ix2 (0 : Fin 1) (i 1 : Fin 128)))

theorem idx_facts1 : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 19 :=
  (by decide +kernel : ∀ t : Fin grid1.N, _)

theorem idx_onto1 : ∀ q0 : Fin 20, ∃ t : Fin cfg1.N, win1_3.index t = ![q0.val, 0] :=
  (by decide +kernel : ∀ q0 : Fin 20, ∃ t : Fin grid1.N, win1_3.index t = ![q0.val, 0])

theorem read1_a (c : Dev nD) (t : Fin cfg1.N) (p : Fin 5000) (q : Fin 128) (r : Fin 100000)
    (hr : r.val = win1_3.index t (0 : Fin 2) * 5000 + p.val) :
    iblk1 V c 0 t (ix2 p q) = V c main_v27 (ix2 r q) := by
  show V c main_v27 (((cfg1.win 0).blk t).view.emb (ix2 p q)) = V c main_v27 (ix2 r q)
  refine congrArg (V c main_v27) (funext fun a => Fin.ext ?_)
  obtain ⟨e00, e01, e10, e11, e20, e21, e31, e30⟩ := idx_facts1 t
  match a with
  | ⟨0, _⟩ => show win1_0.index t (0 : Fin 2) * 5000 + 1 * p.val = r.val; omega
  | ⟨1, _⟩ => show win1_0.index t (1 : Fin 2) * 128 + 1 * q.val = q.val; omega

theorem read1_d (c : Dev nD) (t : Fin cfg1.N) (p : Fin 5000) (r : Fin 100000)
    (hr : r.val = win1_3.index t (0 : Fin 2) * 5000 + p.val) :
    iblk1 V c 1 t (ix2 p (0 : Fin 1)) = V c main_v15 (ix2 r (0 : Fin 1)) := by
  show V c main_v15 (((cfg1.win 1).blk t).view.emb (ix2 p (0 : Fin 1))) = V c main_v15 (ix2 r (0 : Fin 1))
  refine congrArg (V c main_v15) (funext fun a => Fin.ext ?_)
  obtain ⟨e00, e01, e10, e11, e20, e21, e31, e30⟩ := idx_facts1 t
  match a with
  | ⟨0, _⟩ => show win1_1.index t (0 : Fin 2) * 5000 + 1 * p.val = r.val; omega
  | ⟨1, _⟩ => show win1_1.index t (1 : Fin 2) * 1 + 1 * 0 = 0; omega

theorem read1_b (c : Dev nD) (t : Fin cfg1.N) (q : Fin 128) :
    iblk1 V c 2 t (ix2 (0 : Fin 1) q) = V c main_v28 (ix2 (0 : Fin 1) q) := by
  show V c main_v28 (((cfg1.win 2).blk t).view.emb (ix2 (0 : Fin 1) q)) = V c main_v28 (ix2 (0 : Fin 1) q)
  refine congrArg (V c main_v28) (funext fun a => Fin.ext ?_)
  obtain ⟨e00, e01, e10, e11, e20, e21, e31, e30⟩ := idx_facts1 t
  match a with
  | ⟨0, _⟩ => show win1_2.index t (0 : Fin 2) * 1 + 1 * 0 = 0; omega
  | ⟨1, _⟩ => show win1_2.index t (1 : Fin 2) * 128 + 1 * q.val = q.val; omega

theorem flushed1 (c : Dev nD) (t : Fin cfg1.N) :
    (dat1 V c).flushed 3 t = ((cfg1.win 3).blk t).view.read (Elt Ideal) (G1 (V c main_v27) (V c main_v15) (V c main_v28)) := by
  show (cfg1.win 3).cut (grid1.coords t) ((dat1 V c).after 3 t) = _
  rw [after1_3]
  unfold out1_3
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
      = G1 (V c main_v27) (V c main_v15) (V c main_v28) (((cfg1.win 3).blk t).view.emb (ix2 p q))
  refine (Body.pay1_apply (iblk1 V c 0 t) (iblk1 V c 1 t) (iblk1 V c 2 t) p q).trans ?_
  obtain ⟨e00, e01, e10, e11, e20, e21, e31, e30⟩ := idx_facts1 t
  have hr : ((((cfg1.win 3).blk t).view.emb (ix2 p q)) 0 : Fin 100000).val = win1_3.index t (0 : Fin 2) * 5000 + p.val := by
    show win1_3.index t (0 : Fin 2) * 5000 + 1 * p.val = _; omega
  have hq : (((cfg1.win 3).blk t).view.emb (ix2 p q)) 1 = (q : Fin 128) := Fin.ext (by
    show win1_3.index t (1 : Fin 2) * 128 + 1 * q.val = q.val; omega)
  unfold G1
  rw [hq]
  exact congrArg actK (congrArg₂ (· + ·) (congrArg₂ (· * ·) (read1_a V c t p q _ hr) (read1_d V c t p _ hr)) (read1_b V c t q))

theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v29).slice (win1_3.rect t)).set ↔ _
  rw [View.set_slice_whole, Rect.mem_set_unit]
  exact Iff.rfl

theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE SECOND KERNEL'S OUTPUT ARRAY after its run. -/
theorem final1 (c : Dev nD) :
    (dat1 V c).arrAt 3 cfg1.N = G1 (V c main_v27) (V c main_v15) (V c main_v28) :=
  (dat1 V c).arrAt_eq_of_cover 3 (G1 (V c main_v27) (V c main_v15) (V c main_v28)) (fun t _ => flushed1 V c t) cover1

end Cert.KernelIdeal.Blocks

end
-- ==== Proof.Stages.lean ====
/-
  The array operations around the two kernels, as named stages of the edge list and the arrays.

  From the edge list ei (row 0: sources, row 1: destinations) with a self loop appended for every node:
    rowW ei, colW ei    the 1700000 source and destination words;
    degT ei             the degree of every node: ones accumulated at the destination words (a word outside
                        [0, 100000) lands nowhere);
    dinvT ei            the normalisation: the inverse root of the degree where it is positive, else zero;
    wrapT v             an index array prepared for a gather: a negative word has 100000 added, and the words are
                        carried with a trailing unit axis;
    aggT hs ei          the rows of hs gathered at the wrapped source words, accumulated at the destination words.
  The kernel program's result is then the second kernel's function of (the accumulation of the first kernel's
  output), the normalisation column and the bias row.
-/
import proofs.«111637_j953482739902_2_alg».proof.Proof.KernelBlocks

noncomputable section

namespace Cert.KernelIdeal.Stages

open Idealize.ShloMosaic
open Cert.KernelIdeal Cert.KernelIdeal.Facts₀ Cert.KernelIdeal.Facts Cert.Gcn

/-- The source words: row 0 of the edge list, then one self loop per node. -/
def rowW (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

/-- The destination words: row 1 of the edge list, then one self loop per node. -/
def colW (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

/-- The zero array over the nodes. -/
abbrev zerosN : FVec Ideal S100000 .f32 := broadcastInDim S100000 ![] bcast_S_S100000 (constant S_ .f32 0x00000000#32)

/-- Every node's degree. -/
def degT (ei : IVec S2x1600000 32) : FVec Ideal S100000 .f32 :=
  Host.scatterAdd scatter_S100000_S1700000x1_S1700000_n_0_0_1 zerosN
    (broadcastInDim S1700000x1 ![0] bcast_S1700000_S1700000x1_0 (colW ei))
    (broadcastInDim S1700000 ![] bcast_S_S1700000 (constant S_ .f32 0x3F800000#32))

/-- Every node's normalisation. -/
def dinvT (ei : IVec S2x1600000 32) : FVec Ideal S100000 .f32 :=
  select (cmpf .ogt (degT ei) zerosN) (Host.rsqrt (degT ei))
    (broadcastInDim S100000 ![] bcast_S_S100000 (id (constant S_ .f32 0x00000000#32)))

/-- An index array prepared for a gather. -/
def wrapT (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- Rows gathered at the source words and accumulated at the destination words. -/
def aggT (hs : FVec Ideal S100000x128 .f32) (ei : IVec S2x1600000 32) : FVec Ideal S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 (colW ei))
    (Host.gather gather_S100000x128_S1700000x1_S1700000x128_1_0_n_n_0_1_1128 hs (wrapT (rowW ei)))

/-- The normalisation as a column. -/
def dcolT (ei : IVec S2x1600000 32) : FVec Ideal S100000x1 .f32 :=
  shapeCast S100000x1 (dinvT ei) shapeCasts_S100000_S100000x1

/-- THE KERNEL PROGRAM'S RESULT as a function of its four arguments. -/
def kernelOut (x : FVec Ideal S100000x128 .f32) (ei : IVec S2x1600000 32) (W : FVec Ideal S128x128 .f32)
    (b : FVec Ideal S128 .f32) : FVec Ideal S100000x128 .f32 :=
  Blocks.G1 (aggT (Blocks.G0 x (truncf .bf16 W bitsLt_bf16_f32) (dcolT ei)) ei) (dcolT ei)
    (shapeCast S1x128 b shapeCasts_S128_S1x128)

end Cert.KernelIdeal.Stages

end
-- ==== Proof.RefStages.lean ====
/-
  The reference program's result as named stages.

  The reference computes the same edge words, degree and normalisation as the kernel program, then
    h            x · W in one contraction;
    normT ei     per edge, the normalisation at the wrapped source word times the normalisation at the wrapped
                 destination word;
    msgT         per edge and column, h's row at the wrapped source word times the edge's norm;
    preT         the messages accumulated at the destination words, plus the bias;
    actT         the activation of every entry.
  Its generated result term is this composition; the stages it shares with the kernel program are the same functions.
-/
import proofs.«111637_j953482739902_2_alg».proof.Proof.RefRun
import proofs.«111637_j953482739902_2_alg».proof.Proof.Stages

set_option maxRecDepth 16384

noncomputable section

namespace Cert.ReferenceIdeal.Stages

open Idealize.ShloMosaic Idealize.ShloMosaic.TcCoe Idealize.SL.Sem
open Cert.ReferenceIdeal Cert.ReferenceIdeal.Facts₀ Cert.ReferenceIdeal.Facts

def rowW (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩,
    ⟨S100000, iotaInDim S100000 32 0⟩] concatenates_S1600000_S100000_S1700000_d0

def colW (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩,
    ⟨S100000, iotaInDim S100000 32 0⟩] concatenates_S1600000_S100000_S1700000_d0

abbrev zerosN : FVec Ideal S100000 .f32 := broadcastInDim S100000 ![] bcast_S_S100000 (constant S_ .f32 0x00000000#32)

def degT (ei : IVec S2x1600000 32) : FVec Ideal S100000 .f32 :=
  Host.scatterAdd scatter_S100000_S1700000x1_S1700000_n_0_0_1 zerosN
    (broadcastInDim S1700000x1 ![0] bcast_S1700000_S1700000x1_0 (colW ei))
    (broadcastInDim S1700000 ![] bcast_S_S1700000 (constant S_ .f32 0x3F800000#32))

def dinvT (ei : IVec S2x1600000 32) : FVec Ideal S100000 .f32 :=
  select (cmpf .ogt (degT ei) zerosN) (Host.rsqrt (degT ei))
    (broadcastInDim S100000 ![] bcast_S_S100000 (id (constant S_ .f32 0x00000000#32)))

def wrapT (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The stages shared with the kernel program are the same functions. -/
theorem rowW_eq : rowW = Cert.KernelIdeal.Stages.rowW := rfl
theorem colW_eq : colW = Cert.KernelIdeal.Stages.colW := rfl
theorem dinvT_eq : dinvT = Cert.KernelIdeal.Stages.dinvT := rfl
theorem wrapT_eq : wrapT = Cert.KernelIdeal.Stages.wrapT := rfl

/-- Per edge, the product of the two normalisations. -/
def normT (ei : IVec S2x1600000 32) : FVec Ideal S1700000 .f32 :=
  mulf (Host.gather gather_S100000_S1700000x1_S1700000_n_0_n_n_0_1_1 (dinvT ei) (wrapT (rowW ei)))
    (Host.gather gather_S100000_S1700000x1_S1700000_n_0_n_n_0_1_1 (dinvT ei) (wrapT (colW ei)))

/-- Per edge and column, the message. -/
def msgT (x : FVec Ideal S100000x128 .f32) (ei : IVec S2x1600000 32) (W : FVec Ideal S128x128 .f32) : FVec Ideal S1700000x128 .f32 :=
  mulf (Host.gather gather_S100000x128_S1700000x1_S1700000x128_1_0_n_n_0_1_1128
      (Host.dotGeneral dot_S100000x128_S128x128_S100000x128_1_0_0_1_n_n none x W) (wrapT (rowW ei)))
    (broadcastInDim S1700000x128 ![0, 1] bcast_S1700000x1_S1700000x128_0_1
      (broadcastInDim S1700000x1 ![0] bcast_S1700000_S1700000x1_0 (normT ei)))

/-- The accumulated messages plus the bias. -/
def preT (x : FVec Ideal S100000x128 .f32) (ei : IVec S2x1600000 32) (W : FVec Ideal S128x128 .f32) (b : FVec Ideal S128 .f32) :
    FVec Ideal S100000x128 .f32 :=
  addf (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 (colW ei)) (msgT x ei W))
    (broadcastInDim S100000x128 ![0, 1] bcast_S1x128_S100000x128_0_1 (broadcastInDim S1x128 ![1] bcast_S128_S1x128_1 b))

abbrev zeros2 : FVec Ideal S100000x128 .f32 := broadcastInDim S100000x128 ![] bcast_S_S100000x128 (constant S_ .f32 0x00000000#32)

/-- The activation of every entry, as the reference writes it. -/
def actT (v : FVec Ideal S100000x128 .f32) : FVec Ideal S100000x128 .f32 :=
  mulf v (Host.tanh (select (cmpf .une (subf v zeros2) (subf v zeros2)) (addf v zeros2)
    (addf (maximumf v zeros2) (Host.log1p (Host.exp (Host.negf (Host.absf (subf v zeros2))))))))

/-- THE REFERENCE'S RESULT as a function of its four arguments. -/
def refOut (x : FVec Ideal S100000x128 .f32) (ei : IVec S2x1600000 32) (W : FVec Ideal S128x128 .f32) (b : FVec Ideal S128 .f32) :
    FVec Ideal S100000x128 .f32 :=
  actT (preT x ei W b)

set_option maxHeartbeats 4000000 in
/-- The generated result term of the reference's run is this composition. -/
theorem res_eq (m : (ℓ : Loc nD τ sig) → Buf (Elt Ideal) ℓ) (c : Dev nD) :
    ValueP.res_main_v49 (F := Ideal) m c
      = refOut (m ((c.tc : Thread nD τ).loc main_arg0)) (m ((c.tc : Thread nD τ).loc main_arg1))
          (m ((c.tc : Thread nD τ).loc main_arg2)) (m ((c.tc : Thread nD τ).loc main_arg3)) := by
  unfold ValueP.res_main_v49
  rfl

end Cert.ReferenceIdeal.Stages

end
-- ==== Proof.KernelRun.lean ====
/-
  The kernel program's run with its result named.

  The program is two grid kernels among stretches of array operations: the degree normalisation, then the first
  kernel (a row block of x times W, each row scaled by its node's normalisation), then the gather of source rows and
  their accumulation per destination node, then the second kernel (each row scaled again, the bias added, the
  activation applied).  Every weakly fair execution terminates without a fault; what is recorded here is what the
  final state holds in the result buffer: the contents the last segment boundary assigns to it, beside the four
  argument arrays as launched.
-/
import proofs.«111637_j953482739902_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the contents
    of the last segment boundary, and the argument arrays end as launched. -/
theorem run_result : θ_run defs (onTc (τ := τ) (main (F := F))) ⟨m, fun _ => 0, ρ⟩ (fun r => ∀ c : Dev nD,
      r.2.mem ((c.tc : Thread nD τ).loc main_v29) = V6 m ρ c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v29 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

/-- The result buffer is the second kernel's output array: at the last boundary it holds what that kernel's
    write-backs leave. -/
theorem result_arr (c : Dev nD) : V6 m ρ c main_v29 = (dat1 (V5 m ρ) c).arrAt 3 cfg1.N :=
  W6_arr m ρ c 3

end Cert.KernelIdeal.RunValue

end
-- ==== Proof.HostReads.lean ====
/-
  The stretches of array operations between the kernels, read one buffer at a time.

  Each stretch is a list of array operations; from any contents W of the buffers before it, a buffer after it holds
  the composed term of its operations over W at the buffers the stretch reads, and a buffer the stretch does not
  write holds what it held.
-/
import proofs.«111637_j953482739902_2_alg».proof.Proof.Stages
import Idealize.ShloMosaic.Lib.StableHlo.Run

set_option maxRecDepth 16384

noncomputable section

namespace Cert.KernelIdeal.HostReads

open Idealize.ShloMosaic Idealize.ShloMosaic.TcCoe Idealize.SL.Sem Idealize.ShloMosaic.StableHlo
open Cert.KernelIdeal Cert.KernelIdeal.Gen Cert.KernelIdeal.Stages

variable (W : Valuation τ sig (Elt Ideal))

/-! ## The first stretch: the edge words, the degree, its comparison with zero and its inverse root -/

theorem hostOps0_v3 : StableHlo.after hostOps0 W (Proc.devRef .tc main_v3) = rowW (W (Proc.devRef .tc main_arg1)) := by
  after_results
  all_goals rfl
theorem hostOps0_v6 : StableHlo.after hostOps0 W (Proc.devRef .tc main_v6) = colW (W (Proc.devRef .tc main_arg1)) := by
  after_results
  all_goals rfl
theorem hostOps0_v12 : StableHlo.after hostOps0 W (Proc.devRef .tc main_v12)
    = cmpf .ogt (degT (W (Proc.devRef .tc main_arg1))) zerosN := by
  after_results
  all_goals rfl
theorem hostOps0_v13 : StableHlo.after hostOps0 W (Proc.devRef .tc main_v13) = Host.rsqrt (degT (W (Proc.devRef .tc main_arg1))) := by
  after_results
  all_goals rfl
theorem hostOps0_cst2 : StableHlo.after hostOps0 W (Proc.devRef .tc main_cst_2) = (constant S_ .f32 0x00000000#32 : FVec Ideal S_ .f32) := by
  after_results
  all_goals rfl
theorem hostOps0_main_arg0 : StableHlo.after hostOps0 W (Proc.devRef .tc main_arg0) = W (Proc.devRef .tc main_arg0) := by
  after_results
theorem hostOps0_main_arg2 : StableHlo.after hostOps0 W (Proc.devRef .tc main_arg2) = W (Proc.devRef .tc main_arg2) := by
  after_results
theorem hostOps0_main_arg3 : StableHlo.after hostOps0 W (Proc.devRef .tc main_arg3) = W (Proc.devRef .tc main_arg3) := by
  after_results

/-! ## The second stretch: the selection between the inverse root and zero -/

theorem hostOps0_1_v14 : StableHlo.after hostOps0_1 W (Proc.devRef .tc main_v14)
    = select (W (Proc.devRef .tc main_v12)) (W (Proc.devRef .tc main_v13))
        (broadcastInDim S100000 ![] bcast_S_S100000 (id (W (Proc.devRef .tc main_cst_2)))) := by
  after_results
  all_goals rfl
theorem hostOps0_1_main_arg0 : StableHlo.after hostOps0_1 W (Proc.devRef .tc main_arg0) = W (Proc.devRef .tc main_arg0) := by
  after_results
theorem hostOps0_1_main_arg2 : StableHlo.after hostOps0_1 W (Proc.devRef .tc main_arg2) = W (Proc.devRef .tc main_arg2) := by
  after_results
theorem hostOps0_1_main_arg3 : StableHlo.after hostOps0_1 W (Proc.devRef .tc main_arg3) = W (Proc.devRef .tc main_arg3) := by
  after_results
theorem hostOps0_1_main_v3 : StableHlo.after hostOps0_1 W (Proc.devRef .tc main_v3) = W (Proc.devRef .tc main_v3) := by
  after_results
theorem hostOps0_1_main_v6 : StableHlo.after hostOps0_1 W (Proc.devRef .tc main_v6) = W (Proc.devRef .tc main_v6) := by
  after_results

/-! ## The third stretch: the normalisation as a column, W in the narrower format -/

theorem hostOps0_2_v15 : StableHlo.after hostOps0_2 W (Proc.devRef .tc main_v15)
    = shapeCast S100000x1 (W (Proc.devRef .tc main_v14)) shapeCasts_S100000_S100000x1 := by
  after_results
  all_goals rfl
theorem hostOps0_2_v16 : StableHlo.after hostOps0_2 W (Proc.devRef .tc main_v16)
    = (truncf .bf16 (W (Proc.devRef .tc main_arg2)) bitsLt_bf16_f32 : FVec Ideal S128x128 .bf16) := by
  after_results
  all_goals rfl
theorem hostOps0_2_main_arg0 : StableHlo.after hostOps0_2 W (Proc.devRef .tc main_arg0) = W (Proc.devRef .tc main_arg0) := by
  after_results
theorem hostOps0_2_main_arg3 : StableHlo.after hostOps0_2 W (Proc.devRef .tc main_arg3) = W (Proc.devRef .tc main_arg3) := by
  after_results
theorem hostOps0_2_main_v3 : StableHlo.after hostOps0_2 W (Proc.devRef .tc main_v3) = W (Proc.devRef .tc main_v3) := by
  after_results
theorem hostOps0_2_main_v6 : StableHlo.after hostOps0_2 W (Proc.devRef .tc main_v6) = W (Proc.devRef .tc main_v6) := by
  after_results

/-! ## The stretch between the kernels: gather, accumulate, the bias as a row -/

theorem hostOps1_v27 : StableHlo.after hostOps1 W (Proc.devRef .tc main_v27)
    = (Host.scatterAdd (F := Ideal) scatter_S100000x128_S1700000x1_S1700000x128_1_0_0_1
        (broadcastInDim S100000x128 ![] bcast_S_S100000x128 (constant S_ .f32 0x00000000#32))
        (broadcastInDim S1700000x1 ![0] bcast_S1700000_S1700000x1_0 (W (Proc.devRef .tc main_v6)))
        (Host.gather gather_S100000x128_S1700000x1_S1700000x128_1_0_n_n_0_1_1128
          (W (Proc.devRef .tc main_v17) : FVec Ideal S100000x128 .f32)
          (wrapT (W (Proc.devRef .tc main_v3)))) : FVec Ideal S100000x128 .f32) := by
  after_results
  all_goals rfl
theorem hostOps1_v28 : StableHlo.after hostOps1 W (Proc.devRef .tc main_v28)
    = shapeCast S1x128 (W (Proc.devRef .tc main_arg3)) shapeCasts_S128_S1x128 := by
  after_results
  all_goals rfl
theorem hostOps1_main_v15 : StableHlo.after hostOps1 W (Proc.devRef .tc main_v15) = W (Proc.devRef .tc main_v15) := by
  after_results

end Cert.KernelIdeal.HostReads

end
-- ==== Proof.KernelValue.lean ====
/-
  The kernel program's result as a function of its arguments.

  The contents of the buffers are followed from the launch through the six segments: the three stretches of array
  operations that compute the edge words and the normalisation, the first kernel (whose output array is its
  whole-array function of the arrays it finds), the stretch that gathers and accumulates, and the second kernel.
  At the end the result buffer holds the staged composition of the four argument arrays.
-/
import proofs.«111637_j953482739902_2_alg».proof.Proof.KernelRun
import proofs.«111637_j953482739902_2_alg».proof.Proof.HostReads

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen Cert.KernelIdeal.Stages Cert.KernelIdeal.HostReads

variable (m : (ℓ : Loc nD τ sig) → Buf (Elt Ideal) ℓ) (ρ : Dev nD → PrngReg)

/-! ## After the first stretch -/

theorem W1_v3 (c : Dev nD) : W1 m ρ c (Proc.devRef .tc main_v3) = rowW (m ((c : Thread nD τ).loc main_arg1)) := hostOps0_v3 (W0 m ρ c)
theorem W1_v6 (c : Dev nD) : W1 m ρ c (Proc.devRef .tc main_v6) = colW (m ((c : Thread nD τ).loc main_arg1)) := hostOps0_v6 (W0 m ρ c)
theorem W1_v12 (c : Dev nD) : W1 m ρ c (Proc.devRef .tc main_v12) = cmpf .ogt (degT (m ((c : Thread nD τ).loc main_arg1))) zerosN := hostOps0_v12 (W0 m ρ c)
theorem W1_v13 (c : Dev nD) : W1 m ρ c (Proc.devRef .tc main_v13) = Host.rsqrt (degT (m ((c : Thread nD τ).loc main_arg1))) := hostOps0_v13 (W0 m ρ c)
theorem W1_cst2 (c : Dev nD) : W1 m ρ c (Proc.devRef .tc main_cst_2) = (constant S_ .f32 0x00000000#32 : FVec Ideal S_ .f32) := hostOps0_cst2 (W0 m ρ c)
theorem W1_arg0 (c : Dev nD) : W1 m ρ c (Proc.devRef .tc main_arg0) = m ((c : Thread nD τ).loc main_arg0) := hostOps0_main_arg0 (W0 m ρ c)
theorem W1_arg2 (c : Dev nD) : W1 m ρ c (Proc.devRef .tc main_arg2) = m ((c : Thread nD τ).loc main_arg2) := hostOps0_main_arg2 (W0 m ρ c)
theorem W1_arg3 (c : Dev nD) : W1 m ρ c (Proc.devRef .tc main_arg3) = m ((c : Thread nD τ).loc main_arg3) := hostOps0_main_arg3 (W0 m ρ c)

/-! ## After the second stretch: the normalisation -/

theorem W2_v14 (c : Dev nD) : W2 m ρ c (Proc.devRef .tc main_v14) = dinvT (m ((c : Thread nD τ).loc main_arg1)) := by
  refine (hostOps0_1_v14 (W1 m ρ c)).trans ?_
  rw [W1_v12, W1_v13, W1_cst2]
  rfl
theorem W2_arg0 (c : Dev nD) : W2 m ρ c (Proc.devRef .tc main_arg0) = m ((c : Thread nD τ).loc main_arg0) := (hostOps0_1_main_arg0 (W1 m ρ c)).trans (W1_arg0 m ρ c)
theorem W2_arg2 (c : Dev nD) : W2 m ρ c (Proc.devRef .tc main_arg2) = m ((c : Thread nD τ).loc main_arg2) := (hostOps0_1_main_arg2 (W1 m ρ c)).trans (W1_arg2 m ρ c)
theorem W2_arg3 (c : Dev nD) : W2 m ρ c (Proc.devRef .tc main_arg3) = m ((c : Thread nD τ).loc main_arg3) := (hostOps0_1_main_arg3 (W1 m ρ c)).trans (W1_arg3 m ρ c)
theorem W2_v3 (c : Dev nD) : W2 m ρ c (Proc.devRef .tc main_v3) = rowW (m ((c : Thread nD τ).loc main_arg1)) := (hostOps0_1_main_v3 (W1 m ρ c)).trans (W1_v3 m ρ c)
theorem W2_v6 (c : Dev nD) : W2 m ρ c (Proc.devRef .tc main_v6) = colW (m ((c : Thread nD τ).loc main_arg1)) := (hostOps0_1_main_v6 (W1 m ρ c)).trans (W1_v6 m ρ c)

/-! ## After the third stretch: what the first kernel finds -/

theorem W3_v15 (c : Dev nD) : W3 m ρ c (Proc.devRef .tc main_v15) = dcolT (m ((c : Thread nD τ).loc main_arg1)) := by
  refine (hostOps0_2_v15 (W2 m ρ c)).trans ?_
  rw [W2_v14]
  rfl
theorem W3_v16 (c : Dev nD) : W3 m ρ c (Proc.devRef .tc main_v16)
    = (truncf .bf16 (m ((c : Thread nD τ).loc main_arg2) : FVec Ideal S128x128 .f32) Facts₀.bitsLt_bf16_f32 : FVec Ideal S128x128 .bf16) := by
  refine (hostOps0_2_v16 (W2 m ρ c)).trans ?_
  rw [W2_arg2]
theorem W3_arg0 (c : Dev nD) : W3 m ρ c (Proc.devRef .tc main_arg0) = m ((c : Thread nD τ).loc main_arg0) := (hostOps0_2_main_arg0 (W2 m ρ c)).trans (W2_arg0 m ρ c)
theorem W3_arg3 (c : Dev nD) : W3 m ρ c (Proc.devRef .tc main_arg3) = m ((c : Thread nD τ).loc main_arg3) := (hostOps0_2_main_arg3 (W2 m ρ c)).trans (W2_arg3 m ρ c)
theorem W3_v3 (c : Dev nD) : W3 m ρ c (Proc.devRef .tc main_v3) = rowW (m ((c : Thread nD τ).loc main_arg1)) := (hostOps0_2_main_v3 (W2 m ρ c)).trans (W2_v3 m ρ c)
theorem W3_v6 (c : Dev nD) : W3 m ρ c (Proc.devRef .tc main_v6) = colW (m ((c : Thread nD τ).loc main_arg1)) := (hostOps0_2_main_v6 (W2 m ρ c)).trans (W2_v6 m ρ c)

/-! ## After the first kernel -/

/-- The first kernel's output array: its whole-array function of x, W and the normalisation column. -/
theorem W4_v17 (c : Dev nD) : W4 m ρ c (Proc.devRef .tc main_v17)
    = Blocks.G0 (m ((c : Thread nD τ).loc main_arg0)) (truncf .bf16 (m ((c : Thread nD τ).loc main_arg2) : FVec Ideal S128x128 .f32) Facts₀.bitsLt_bf16_f32 : FVec Ideal S128x128 .bf16) (dcolT (m ((c : Thread nD τ).loc main_arg1))) := by
  refine (W4_arr m ρ c 3).trans ((Blocks.final0 (V3 m ρ) c).trans ?_)
  show Blocks.G0 (W3 m ρ c (Proc.devRef .tc main_arg0)) (W3 m ρ c (Proc.devRef .tc main_v16)) (W3 m ρ c (Proc.devRef .tc main_v15)) = _
  rw [W3_arg0, W3_v16, W3_v15]
theorem W4_v3 (c : Dev nD) : W4 m ρ c (Proc.devRef .tc main_v3) = rowW (m ((c : Thread nD τ).loc main_arg1)) := (W4_of_ne m ρ c main_v3 (by decide)).trans (W3_v3 m ρ c)
theorem W4_v6 (c : Dev nD) : W4 m ρ c (Proc.devRef .tc main_v6) = colW (m ((c : Thread nD τ).loc main_arg1)) := (W4_of_ne m ρ c main_v6 (by decide)).trans (W3_v6 m ρ c)
/-- The normalisation column is one of the first kernel's input arrays: the kernel leaves it as it found it. -/
theorem W4_v15 (c : Dev nD) : W4 m ρ c (Proc.devRef .tc main_v15) = dcolT (m ((c : Thread nD τ).loc main_arg1)) :=
  (W4_arr m ρ c 2).trans ((((dat0 (V3 m ρ) c).arrAt_in 2 rfl _).trans (A_eq0 (V3 m ρ) c 2)).trans (W3_v15 m ρ c))
theorem W4_arg3 (c : Dev nD) : W4 m ρ c (Proc.devRef .tc main_arg3) = m ((c : Thread nD τ).loc main_arg3) := (W4_of_ne m ρ c main_arg3 (by decide)).trans (W3_arg3 m ρ c)

/-! ## After the stretch between the kernels: what the second kernel finds -/

theorem W5_v27 (c : Dev nD) : W5 m ρ c (Proc.devRef .tc main_v27)
    = aggT (Blocks.G0 (m ((c : Thread nD τ).loc main_arg0)) (truncf .bf16 (m ((c : Thread nD τ).loc main_arg2) : FVec Ideal S128x128 .f32) Facts₀.bitsLt_bf16_f32 : FVec Ideal S128x128 .bf16) (dcolT (m ((c : Thread nD τ).loc main_arg1)))) (m ((c : Thread nD τ).loc main_arg1)) := by
  refine (hostOps1_v27 (W4 m ρ c)).trans ?_
  rw [W4_v6, W4_v17, W4_v3]
  rfl
theorem W5_v15 (c : Dev nD) : W5 m ρ c (Proc.devRef .tc main_v15) = dcolT (m ((c : Thread nD τ).loc main_arg1)) := (hostOps1_main_v15 (W4 m ρ c)).trans (W4_v15 m ρ c)
theorem W5_v28 (c : Dev nD) : W5 m ρ c (Proc.devRef .tc main_v28) = shapeCast S1x128 (m ((c : Thread nD τ).loc main_arg3)) Facts₀.shapeCasts_S128_S1x128 := by
  refine (hostOps1_v28 (W4 m ρ c)).trans ?_
  rw [W4_arg3]

/-! ## The result -/

/-- THE RESULT BUFFER at the end of the run: the staged composition of the four arguments. -/
theorem kernel_value (c : Dev nD) :
    V6 m ρ c main_v29 = kernelOut (m ((c : Thread nD τ).loc main_arg0)) (m ((c : Thread nD τ).loc main_arg1)) (m ((c : Thread nD τ).loc main_arg2)) (m ((c : Thread nD τ).loc main_arg3)) := by
  refine (RunValue.result_arr m ρ c).trans ((Blocks.final1 (V5 m ρ) c).trans ?_)
  show Blocks.G1 (W5 m ρ c (Proc.devRef .tc main_v27)) (W5 m ρ c (Proc.devRef .tc main_v15)) (W5 m ρ c (Proc.devRef .tc main_v28)) = _
  rw [W5_v27, W5_v15, W5_v28]
  rfl

end Cert.KernelIdeal.KValue

end
-- ==== Proof.LibRows.lean ====
/-
  Gathering rows by an index array and accumulating rows per destination, read at an index, for any sizes.

  A gather of rows: the operand has N rows of C entries (or N scalar entries), the index array has one word per edge
  (carried with a trailing unit axis), and the result has one row (one entry) per edge: the operand's row at the
  edge's word read as a signed integer and clamped to [0, N - 1].  So a row gather at (e, c) and a flat gather at e,
  given the same index array, read the same row of their operands.

  An accumulating scatter of rows: an update (e, c) lands on the operand's entry (i, c') exactly when the edge's word,
  read as a signed integer and NOT clamped, is i, and c = c'.  In particular a word that lands on row i is
  non-negative and below N, so the clamped read of that same word is i again.
-/
import Idealize.ShloMosaic.PureOps.Ideal
import Idealize.ShloMosaic.Lib.ValueIdx

noncomputable section

namespace Cert.LibRows

open Idealize.ShloMosaic Idealize.ShloMosaic.ValueIdx

variable {N E C w : ℕ}

/-- An edge's word read as a row number for a gather: signed, clamped to the last row. -/
def clampRow (N : ℕ) (x : BitVec w) : ℕ := min x.toInt.toNat (N - 1)

theorem clampRow_lt (hN : 0 < N) (x : BitVec w) : clampRow N x < N := by
  unfold clampRow
  have := Nat.min_le_right x.toInt.toNat (N - 1)
  omega

/-- A word that reads, signed, as a row number below N is its own clamped read. -/
theorem clampRow_of_toInt {x : BitVec w} {i : ℕ} (hi : i < N) (h : x.toInt = (i : Int)) : clampRow N x = i := by
  unfold clampRow
  rw [h, Int.toNat_natCast]
  exact Nat.min_eq_left (by omega)

/-! ## The row gather -/

section RowGather
variable (wfG : GatherDims.WF ⟨2, ![N, C]⟩ ⟨2, ![E, 1]⟩ ⟨2, ![E, C]⟩ [1] [0] [] [0] [] 1 ![1, C])

/-- The row gather's dimension numbers. -/
abbrev rowDims : GatherDims ⟨2, ![N, C]⟩ ⟨2, ![E, 1]⟩ ⟨2, ![E, C]⟩ := ⟨[1], [0], [], [], [0], 1, ![1, C], wfG⟩

theorem row_operandIdx0 (idx : IVec ⟨2, ![E, 1]⟩ w) (e : Fin E) (c : Fin C) :
    (((rowDims wfG).operandIdx (ix2 e c) idx) 0).val = clampRow N (idx (ix2 e 0)) := by
  show (rowDims wfG).start (ix2 e c) idx 0 + (rowDims wfG).batchCoord (ix2 e c) 0 + (rowDims wfG).offCoord (ix2 e c) 0 = _
  have hs : (rowDims wfG).start (ix2 e c) idx 0 = clampRow N (idx (ix2 e 0)) := by
    unfold GatherDims.start clampRow
    rw [dif_pos (by simp)]
    congr 3
    refine congrArg idx (funext fun b => ?_)
    match b with
    | ⟨0, _⟩ => rfl
    | ⟨1, _⟩ => rfl
  have hb : (rowDims wfG).batchCoord (ix2 e c) 0 = 0 := by
    unfold GatherDims.batchCoord
    rw [dif_neg (by simp)]
  have ho : (rowDims wfG).offCoord (ix2 e c) 0 = 0 := by
    unfold GatherDims.offCoord
    rw [dif_neg (by simp [GatherDims.sKept, Shape.kept, List.finRange])]
  rw [hs, hb, ho]
  omega

theorem row_operandIdx1 (idx : IVec ⟨2, ![E, 1]⟩ w) (e : Fin E) (c : Fin C) :
    (((rowDims wfG).operandIdx (ix2 e c) idx) 1).val = c.val := by
  show (rowDims wfG).start (ix2 e c) idx 1 + (rowDims wfG).batchCoord (ix2 e c) 1 + (rowDims wfG).offCoord (ix2 e c) 1 = _
  have hs : (rowDims wfG).start (ix2 e c) idx 1 = 0 := by
    unfold GatherDims.start
    rw [dif_neg (by simp)]
  have hb : (rowDims wfG).batchCoord (ix2 e c) 1 = 0 := by
    unfold GatherDims.batchCoord
    rw [dif_neg (by simp)]
  have ho : (rowDims wfG).offCoord (ix2 e c) 1 = c.val := by
    unfold GatherDims.offCoord
    rw [dif_pos (by simp [GatherDims.sKept, Shape.kept, List.finRange])]
    rfl
  rw [hs, hb, ho]
  omega

/-- THE ROW GATHER AT AN ENTRY: the operand's row at the edge's clamped word, same column. -/
theorem row_gather_apply {α : Type} (hN : 0 < N) (X : (⟨2, ![N, C]⟩ : Shape).Idx → α) (idx : IVec ⟨2, ![E, 1]⟩ w)
    (e : Fin E) (c : Fin C) :
    Host.gather (rowDims wfG) X idx (ix2 e c) = X (ix2 ⟨clampRow N (idx (ix2 e 0)), clampRow_lt hN _⟩ c) := by
  unfold Host.gather
  refine congrArg X (funext fun a => Fin.ext ?_)
  match a with
  | ⟨0, _⟩ => exact row_operandIdx0 wfG idx e c
  | ⟨1, _⟩ => exact row_operandIdx1 wfG idx e c
end RowGather

/-! ## The flat gather -/

section FlatGather
variable (wfg : GatherDims.WF ⟨1, ![N]⟩ ⟨2, ![E, 1]⟩ ⟨1, ![E]⟩ [] [0] [] [0] [] 1 ![1])

/-- The flat gather's dimension numbers. -/
abbrev flatDims : GatherDims ⟨1, ![N]⟩ ⟨2, ![E, 1]⟩ ⟨1, ![E]⟩ := ⟨[], [0], [], [], [0], 1, ![1], wfg⟩

theorem flat_operandIdx0 (idx : IVec ⟨2, ![E, 1]⟩ w) (e : Fin E) :
    (((flatDims wfg).operandIdx (ix1 e) idx) 0).val = clampRow N (idx (ix2 e 0)) := by
  show (flatDims wfg).start (ix1 e) idx 0 + (flatDims wfg).batchCoord (ix1 e) 0 + (flatDims wfg).offCoord (ix1 e) 0 = _
  have hs : (flatDims wfg).start (ix1 e) idx 0 = clampRow N (idx (ix2 e 0)) := by
    unfold GatherDims.start clampRow
    rw [dif_pos (by simp)]
    congr 3
    refine congrArg idx (funext fun b => ?_)
    match b with
    | ⟨0, _⟩ => rfl
    | ⟨1, _⟩ => rfl
  have hb : (flatDims wfg).batchCoord (ix1 e) 0 = 0 := by
    unfold GatherDims.batchCoord
    rw [dif_neg (by simp)]
  have ho : (flatDims wfg).offCoord (ix1 e) 0 = 0 := by
    unfold GatherDims.offCoord
    rw [dif_neg (by simp [GatherDims.sKept, Shape.kept, List.finRange])]
  rw [hs, hb, ho]
  omega

/-- THE FLAT GATHER AT AN ENTRY: the operand's entry at the edge's clamped word. -/
theorem flat_gather_apply {α : Type} (hN : 0 < N) (x : (⟨1, ![N]⟩ : Shape).Idx → α) (idx : IVec ⟨2, ![E, 1]⟩ w) (e : Fin E) :
    Host.gather (flatDims wfg) x idx (ix1 e) = x (ix1 ⟨clampRow N (idx (ix2 e 0)), clampRow_lt hN _⟩) := by
  unfold Host.gather
  refine congrArg x (funext fun a => Fin.ext ?_)
  match a with
  | ⟨0, _⟩ => exact flat_operandIdx0 wfg idx e
end FlatGather

/-! ## The accumulating scatter of rows -/

section RowScatter
variable (wfS : ScatterDims.WF ⟨2, ![N, C]⟩ ⟨2, ![E, 1]⟩ ⟨2, ![E, C]⟩ [1] [0] [0] 1)

/-- The row scatter's dimension numbers. -/
abbrev scatDims : ScatterDims ⟨2, ![N, C]⟩ ⟨2, ![E, 1]⟩ ⟨2, ![E, C]⟩ := ⟨[1], [0], [0], 1, wfS⟩

theorem scat_start0 (idx : IVec ⟨2, ![E, 1]⟩ w) (e : Fin E) (c : Fin C) :
    (scatDims wfS).start (ix2 e c) idx 0 = (idx (ix2 e 0)).toInt := by
  unfold ScatterDims.start
  rw [dif_pos (by simp)]
  congr 2
  funext b
  match b with
  | ⟨0, _⟩ => rfl
  | ⟨1, _⟩ => rfl

theorem scat_window0 (e : Fin E) (c : Fin C) : (scatDims wfS).window (ix2 e c) 0 = 0 := by
  unfold ScatterDims.window
  rw [dif_neg (by simp [ScatterDims.sKept, Shape.kept, List.finRange])]

/-- An update that lands on row i has a destination word that reads, signed, as i. -/
theorem lands_toInt (idx : IVec ⟨2, ![E, 1]⟩ w) (e : Fin E) (c : Fin C) (i : (⟨2, ![N, C]⟩ : Shape).Idx)
    (h : (scatDims wfS).resultIdx? (ix2 e c) idx = some i) : (idx (ix2 e 0)).toInt = ((i 0).val : Int) := by
  unfold ScatterDims.resultIdx? at h
  split at h
  · rename_i hin
    have hi := Option.some.inj h
    have h0 : ((scatDims wfS).start (ix2 e c) idx 0 + ((scatDims wfS).window (ix2 e c) 0 : Int)).toNat = (i 0).val := by
      rw [← hi]
    rw [scat_start0, scat_window0, Nat.cast_zero, add_zero] at h0
    have hnn := (hin 0).1
    rw [scat_start0, scat_window0, Nat.cast_zero, add_zero] at hnn
    rw [← h0, Int.toNat_of_nonneg hnn]
  · cases h

/-- So the clamped read of that same word is row i. -/
theorem lands_clampRow (idx : IVec ⟨2, ![E, 1]⟩ w) (e : Fin E) (c : Fin C) (i : (⟨2, ![N, C]⟩ : Shape).Idx)
    (h : (scatDims wfS).resultIdx? (ix2 e c) idx = some i) : clampRow N (idx (ix2 e 0)) = (i 0).val :=
  clampRow_of_toInt (i 0).isLt (lands_toInt wfS idx e c i h)
end RowScatter

end Cert.LibRows

end
-- ==== Proof.Bridge.lean ====
/-
  The kernel program's result and the reference's are one function of the arguments.

  Fix an entry (r, q).  Both programs accumulate, over the updates (e, c) that land on (r, q), a product of three
  numbers: P, the entry (ρ, c) of x · W at the edge's wrapped and clamped source word ρ; the normalisation of ρ; and
  the normalisation of the destination.  The reference multiplies P by the product of the two normalisations before
  accumulating; the kernel program multiplies P by the source's normalisation inside its first kernel, accumulates,
  and multiplies the sum by the normalisation of row r inside its second kernel.  An update lands on row r exactly
  when its destination word reads, signed, as r; such a word is not negative, so wrapping leaves it alone, and it is
  below 100000, so clamping leaves it alone: the destination's normalisation is that of row r, the same for every
  term of the sum.  That normalisation is non-negative and not +infinity, so it distributes over the sum.  The
  bias is added and the activation applied to the same number on both sides.
-/
import proofs.«111637_j953482739902_2_alg».proof.Proof.Stages
import proofs.«111637_j953482739902_2_alg».proof.Proof.RefStages
import proofs.«111637_j953482739902_2_alg».proof.Proof.LibRows
import proofs.«111637_j953482739902_2_alg».proof.Proof.LibColumn
import proofs.«111637_j953482739902_2_alg».proof.Proof.Products
import proofs.«111637_j953482739902_2_alg».proof.Proof.Scalars
import Idealize.ShloMosaic.Lib.Pipeline.Value
import Idealize.ShloMosaic.Lib.ValueLayout

set_option maxRecDepth 16384

noncomputable section

namespace Cert.Gcn.Bridge

open Idealize.ShloMosaic Idealize.ShloMosaic.ValueIdx Cert.Gcn Cert.LibRows

/-! ## The index arrays -/

/-- An index array prepared for a gather, read at an edge: a negative word has 100000 added. -/
theorem wrapT_apply (v : IVec Cert.KernelIdeal.S1700000 32) (e : Fin 1700000) :
    Cert.KernelIdeal.Stages.wrapT v (ix2 e (0 : Fin 1))
      = Scalar.select (IntOp.cmpi .slt (v (ix1 e)) 0#32) (IntOp.addi (v (ix1 e)) 100000#32) (v (ix1 e)) := by
  unfold Cert.KernelIdeal.Stages.wrapT
  refine (broadcastInDim_apply _ _ _ (ix2 e (0 : Fin 1)) (ix1 e) fun a => ?_).trans rfl
  match a with
  | ⟨0, _⟩ => rfl

/-- A word that is not negative is left alone. -/
theorem wrap_of_nonneg (x : BitVec 32) (h : 0 ≤ x.toInt) :
    Scalar.select (IntOp.cmpi .slt x 0#32) (IntOp.addi x 100000#32) x = x := by
  have hs : x.slt 0#32 = false := by
    rw [BitVec.slt_eq_decide]
    simp only [BitVec.toInt_zero, decide_eq_false_iff_not, not_lt]
    exact h
  unfold Scalar.select IntOp.cmpi
  simp only [hs]
  rfl

/-- The destination words carried with a trailing unit axis, read at an edge. -/
theorem colB_apply (v : IVec Cert.KernelIdeal.S1700000 32) (e : Fin 1700000) :
    (broadcastInDim Cert.KernelIdeal.S1700000x1 ![0] Cert.KernelIdeal.Facts₀.bcast_S1700000_S1700000x1_0 v : IVec Cert.KernelIdeal.S1700000x1 32) (ix2 e (0 : Fin 1)) = v (ix1 e) := by
  refine broadcastInDim_apply _ _ _ (ix2 e (0 : Fin 1)) (ix1 e) fun a => ?_
  match a with
  | ⟨0, _⟩ => rfl

/-! ## The two gathers and the scatter over the printed dimension numbers -/

theorem rows_gather_apply (X : FVec Ideal Cert.KernelIdeal.S100000x128 .f32) (idx : IVec Cert.KernelIdeal.S1700000x1 32) (e : Fin 1700000) (c : Fin 128) :
    Host.gather Cert.KernelIdeal.gather_S100000x128_S1700000x1_S1700000x128_1_0_n_n_0_1_1128 X idx (ix2 e c)
      = X (ix2 ⟨clampRow 100000 (idx (ix2 e 0)), clampRow_lt (by decide) _⟩ c) :=
  row_gather_apply (N := 100000) (E := 1700000) (C := 128) Cert.KernelIdeal.Facts₀.gather_S100000x128_S1700000x1_S1700000x128_1_0_n_n_0_1_1128_wf (by decide) X idx e c

theorem flat_gather_apply' (x : FVec Ideal Cert.ReferenceIdeal.S100000 .f32) (idx : IVec Cert.ReferenceIdeal.S1700000x1 32) (e : Fin 1700000) :
    Host.gather Cert.ReferenceIdeal.gather_S100000_S1700000x1_S1700000_n_0_n_n_0_1_1 x idx (ix1 e)
      = x (ix1 ⟨clampRow 100000 (idx (ix2 e 0)), clampRow_lt (by decide) _⟩) :=
  flat_gather_apply (N := 100000) (E := 1700000) Cert.ReferenceIdeal.Facts₀.gather_S100000_S1700000x1_S1700000_n_0_n_n_0_1_1_wf (by decide) x idx e

/-- An update that lands on row r has a destination word whose clamped read is r, and which is not negative. -/
theorem lands (idx : IVec Cert.KernelIdeal.S1700000x1 32) (e : Fin 1700000) (c : Fin 128) (i : Cert.KernelIdeal.S100000x128.Idx)
    (h : Cert.KernelIdeal.scatter_S100000x128_S1700000x1_S1700000x128_1_0_0_1.resultIdx? (ix2 e c) idx = some i) :
    clampRow 100000 (idx (ix2 e 0)) = (i 0).val ∧ 0 ≤ (idx (ix2 e 0)).toInt := by
  have h' : (scatDims (N := 100000) (E := 1700000) (C := 128) Cert.KernelIdeal.Facts₀.scatter_S100000x128_S1700000x1_S1700000x128_1_0_0_1_wf).resultIdx? (ix2 e c) idx = some i := h
  refine ⟨lands_clampRow _ idx e c i h', ?_⟩
  rw [lands_toInt _ idx e c i h']
  exact Int.natCast_nonneg _

/-! ## The layers read at an entry, for any arrays -/

/-- The selection between the inverse root and zero, at a node, over any degree array. -/
theorem dsel_apply (deg : FVec Ideal Cert.KernelIdeal.S100000 .f32) (j : Cert.KernelIdeal.S100000.Idx) :
    (select (cmpf .ogt deg Cert.KernelIdeal.Stages.zerosN) (Host.rsqrt deg)
      (broadcastInDim Cert.KernelIdeal.S100000 ![] Cert.KernelIdeal.Facts₀.bcast_S_S100000 (id (constant Cert.KernelIdeal.S_ .f32 0x00000000#32))) : FVec Ideal Cert.KernelIdeal.S100000 .f32) j
      = dnorm (deg j) := rfl

/-- The second kernel's whole-array function at an entry, over any arrays. -/
theorem G1_apply (a : Cert.KernelIdeal.S100000x128.Idx → Elt Ideal .f32) (d : Cert.KernelIdeal.S100000x1.Idx → Elt Ideal .f32) (b2 : Cert.KernelIdeal.S1x128.Idx → Elt Ideal .f32)
    (r : Fin 100000) (q : Fin 128) :
    Cert.KernelIdeal.Blocks.G1 a d b2 (ix2 r q) = actK (a (ix2 r q) * d (ix2 r (0 : Fin 1)) + b2 (ix2 (0 : Fin 1) q)) := rfl

/-- The first kernel's whole-array function at an entry, over any arrays. -/
theorem G0_apply (x : Cert.KernelIdeal.S100000x128.Idx → Elt Ideal .f32) (w : Cert.KernelIdeal.S128x128.Idx → Elt Ideal .bf16) (d : Cert.KernelIdeal.S100000x1.Idx → Elt Ideal .f32)
    (r : Fin 100000) (q : Fin 128) :
    Cert.KernelIdeal.Blocks.G0 x w d (ix2 r q) = (∑ k : Fin 128, x (ix2 r k) * w (ix2 k q)) * d (ix2 r (0 : Fin 1)) := rfl

/-- The reference's activation at an entry, over any array. -/
theorem actT_apply (v : FVec Ideal Cert.ReferenceIdeal.S100000x128 .f32) (i : Cert.ReferenceIdeal.S100000x128.Idx) :
    Cert.ReferenceIdeal.Stages.actT v i = actR (v i) := rfl

/-- The zero array at an entry. -/
theorem zeros2_apply (j : Cert.KernelIdeal.S100000x128.Idx) :
    (broadcastInDim Cert.KernelIdeal.S100000x128 ![] Cert.KernelIdeal.Facts₀.bcast_S_S100000x128 (constant Cert.KernelIdeal.S_ .f32 0x00000000#32) : FVec Ideal Cert.KernelIdeal.S100000x128 .f32) j = Z32 := rfl

/-- The accumulating scatter at an entry, over any operand, index array and updates: the operand's entry plus the
    updates that land on it. -/
theorem scatterAdd_apply (x0 : FVec Ideal Cert.KernelIdeal.S100000x128 .f32) (idx : IVec Cert.KernelIdeal.S1700000x1 32) (upd : FVec Ideal Cert.KernelIdeal.S1700000x128 .f32)
    (i : Cert.KernelIdeal.S100000x128.Idx) :
    (Host.scatterAdd Cert.KernelIdeal.scatter_S100000x128_S1700000x1_S1700000x128_1_0_0_1 x0 idx upd : FVec Ideal Cert.KernelIdeal.S100000x128 .f32) i
      = x0 i + ∑ u ∈ Finset.univ.filter (fun u => Cert.KernelIdeal.scatter_S100000x128_S1700000x1_S1700000x128_1_0_0_1.resultIdx? u idx = some i), upd u := rfl

/-- The two programs' records of dimension numbers are the same records. -/
theorem scat_eq : Cert.ReferenceIdeal.scatter_S100000x128_S1700000x1_S1700000x128_1_0_0_1 = Cert.KernelIdeal.scatter_S100000x128_S1700000x1_S1700000x128_1_0_0_1 := rfl
theorem gatherRows_eq : Cert.ReferenceIdeal.gather_S100000x128_S1700000x1_S1700000x128_1_0_n_n_0_1_1128 = Cert.KernelIdeal.gather_S100000x128_S1700000x1_S1700000x128_1_0_n_n_0_1_1128 := rfl

/-! ## The normalisation -/

/-- The normalisation of a node is the scalar normalisation of its degree. -/
theorem dinvT_apply (ei : IVec Cert.KernelIdeal.S2x1600000 32) (j : Cert.KernelIdeal.S100000.Idx) :
    Cert.KernelIdeal.Stages.dinvT ei j = dnorm (Cert.KernelIdeal.Stages.degT ei j) := by
  unfold Cert.KernelIdeal.Stages.dinvT
  exact dsel_apply _ j

theorem dinvT_bounds (ei : IVec Cert.KernelIdeal.S2x1600000 32) (j : Cert.KernelIdeal.S100000.Idx) :
    0 ≤ Cert.KernelIdeal.Stages.dinvT ei j ∧ Cert.KernelIdeal.Stages.dinvT ei j ≠ ⊤ := by
  rw [dinvT_apply]; exact dnorm_bounds _

/-- The normalisation column at row r is the normalisation of node r. -/
theorem dcolT_apply (ei : IVec Cert.KernelIdeal.S2x1600000 32) (r : Fin 100000) :
    Cert.KernelIdeal.Stages.dcolT ei (ix2 r (0 : Fin 1)) = Cert.KernelIdeal.Stages.dinvT ei (ix1 r) := by
  unfold Cert.KernelIdeal.Stages.dcolT
  exact Cert.LibColumn.shapeCast_a_a1_apply (Cert.KernelIdeal.Stages.dinvT ei) _ r 0

/-! ## One term of the accumulation -/

/-- The kernel program's update at (e, c): the first kernel's output row at the edge's source. -/
theorem updK_apply (x : FVec Ideal Cert.KernelIdeal.S100000x128 .f32) (ei : IVec Cert.KernelIdeal.S2x1600000 32) (W : FVec Ideal Cert.KernelIdeal.S128x128 .f32)
    (e : Fin 1700000) (c : Fin 128) :
    Host.gather Cert.KernelIdeal.gather_S100000x128_S1700000x1_S1700000x128_1_0_n_n_0_1_1128
        (Cert.KernelIdeal.Blocks.G0 x (truncf .bf16 W Cert.KernelIdeal.Facts₀.bitsLt_bf16_f32 : FVec Ideal Cert.KernelIdeal.S128x128 .bf16) (Cert.KernelIdeal.Stages.dcolT ei))
        (Cert.KernelIdeal.Stages.wrapT (Cert.KernelIdeal.Stages.rowW ei)) (ix2 e c)
      = (∑ k : Fin 128, x (ix2 ⟨clampRow 100000 (Cert.KernelIdeal.Stages.wrapT (Cert.KernelIdeal.Stages.rowW ei) (ix2 e 0)), clampRow_lt (by decide) _⟩ k) * W (ix2 k c))
          * Cert.KernelIdeal.Stages.dinvT ei (ix1 ⟨clampRow 100000 (Cert.KernelIdeal.Stages.wrapT (Cert.KernelIdeal.Stages.rowW ei) (ix2 e 0)), clampRow_lt (by decide) _⟩) := by
  rw [rows_gather_apply, G0_apply, dcolT_apply]
  rfl

/-- The reference's per-edge norm at e. -/
theorem normT_apply (ei : IVec Cert.ReferenceIdeal.S2x1600000 32) (e : Fin 1700000) :
    Cert.ReferenceIdeal.Stages.normT ei (ix1 e)
      = Cert.KernelIdeal.Stages.dinvT ei (ix1 ⟨clampRow 100000 (Cert.KernelIdeal.Stages.wrapT (Cert.KernelIdeal.Stages.rowW ei) (ix2 e 0)), clampRow_lt (by decide) _⟩)
          * Cert.KernelIdeal.Stages.dinvT ei (ix1 ⟨clampRow 100000 (Cert.KernelIdeal.Stages.wrapT (Cert.KernelIdeal.Stages.colW ei) (ix2 e 0)), clampRow_lt (by decide) _⟩) := by
  unfold Cert.ReferenceIdeal.Stages.normT
  rw [Cert.ReferenceIdeal.Stages.rowW_eq, Cert.ReferenceIdeal.Stages.colW_eq, Cert.ReferenceIdeal.Stages.dinvT_eq, Cert.ReferenceIdeal.Stages.wrapT_eq, mulf_apply,
    flat_gather_apply', flat_gather_apply']

/-- The per-edge norm spread over the columns, at (e, c). -/
theorem normB_apply (n : FVec Ideal Cert.ReferenceIdeal.S1700000 .f32) (e : Fin 1700000) (c : Fin 128) :
    (broadcastInDim Cert.ReferenceIdeal.S1700000x128 ![0, 1] Cert.ReferenceIdeal.Facts₀.bcast_S1700000x1_S1700000x128_0_1
      (broadcastInDim Cert.ReferenceIdeal.S1700000x1 ![0] Cert.ReferenceIdeal.Facts₀.bcast_S1700000_S1700000x1_0 n) : FVec Ideal Cert.ReferenceIdeal.S1700000x128 .f32) (ix2 e c) = n (ix1 e) := by
  refine (broadcastInDim_apply _ _ _ (ix2 e c) (ix2 e (0 : Fin 1)) fun a => ?_).trans ?_
  · match a with
    | ⟨0, _⟩ => rfl
    | ⟨1, _⟩ => rfl
  refine broadcastInDim_apply _ _ _ (ix2 e (0 : Fin 1)) (ix1 e) fun a => ?_
  match a with
  | ⟨0, _⟩ => rfl

/-- The reference's update at (e, c): the product's row at the edge's source times the edge's two normalisations. -/
theorem msgT_apply (x : FVec Ideal Cert.ReferenceIdeal.S100000x128 .f32) (ei : IVec Cert.ReferenceIdeal.S2x1600000 32) (W : FVec Ideal Cert.ReferenceIdeal.S128x128 .f32)
    (e : Fin 1700000) (c : Fin 128) :
    Cert.ReferenceIdeal.Stages.msgT x ei W (ix2 e c)
      = (∑ k : Fin 128, x (ix2 ⟨clampRow 100000 (Cert.KernelIdeal.Stages.wrapT (Cert.KernelIdeal.Stages.rowW ei) (ix2 e 0)), clampRow_lt (by decide) _⟩ k) * W (ix2 k c))
          * (Cert.KernelIdeal.Stages.dinvT ei (ix1 ⟨clampRow 100000 (Cert.KernelIdeal.Stages.wrapT (Cert.KernelIdeal.Stages.rowW ei) (ix2 e 0)), clampRow_lt (by decide) _⟩)
              * Cert.KernelIdeal.Stages.dinvT ei (ix1 ⟨clampRow 100000 (Cert.KernelIdeal.Stages.wrapT (Cert.KernelIdeal.Stages.colW ei) (ix2 e 0)), clampRow_lt (by decide) _⟩)) := by
  unfold Cert.ReferenceIdeal.Stages.msgT
  rw [mulf_apply, normB_apply, normT_apply, Cert.ReferenceIdeal.Stages.rowW_eq, Cert.ReferenceIdeal.Stages.wrapT_eq, gatherRows_eq, rows_gather_apply,
    Products.whole_product_apply]

/-! ## The bias -/

theorem biasK_apply (b : FVec Ideal Cert.KernelIdeal.S128 .f32) (q : Fin 128) :
    (shapeCast Cert.KernelIdeal.S1x128 b Cert.KernelIdeal.Facts₀.shapeCasts_S128_S1x128 : FVec Ideal Cert.KernelIdeal.S1x128 .f32) (ix2 (0 : Fin 1) q) = b (ix1 q) :=
  shapeCast_a_1a_apply b _ 0 q

theorem biasR_apply (b : FVec Ideal Cert.ReferenceIdeal.S128 .f32) (r : Fin 100000) (q : Fin 128) :
    (broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b) : FVec Ideal Cert.ReferenceIdeal.S100000x128 .f32) (ix2 r q) = b (ix1 q) := by
  refine (broadcastInDim_apply _ _ _ (ix2 r q) (ix2 (0 : Fin 1) q) fun a => ?_).trans ?_
  · match a with
    | ⟨0, _⟩ => rfl
    | ⟨1, _⟩ => rfl
  refine broadcastInDim_apply _ _ _ (ix2 (0 : Fin 1) q) (ix1 q) fun a => ?_
  match a with
  | ⟨0, _⟩ => rfl

/-! ## The accumulated rows -/

/-- The kernel program's accumulated entry (r, q), scaled by a factor that is non-negative and not +infinity: the
    factor goes inside the sum over the updates that land on (r, q). -/
theorem aggT_mul (hs : FVec Ideal Cert.KernelIdeal.S100000x128 .f32) (ei : IVec Cert.KernelIdeal.S2x1600000 32) (r : Fin 100000) (q : Fin 128)
    (D : EReal) (h0 : 0 ≤ D) (ht : D ≠ ⊤) :
    Cert.KernelIdeal.Stages.aggT hs ei (ix2 r q) * D
      = Z32 + ∑ u ∈ Finset.univ.filter (fun u => Cert.KernelIdeal.scatter_S100000x128_S1700000x1_S1700000x128_1_0_0_1.resultIdx? u
            (broadcastInDim Cert.KernelIdeal.S1700000x1 ![0] Cert.KernelIdeal.Facts₀.bcast_S1700000_S1700000x1_0 (Cert.KernelIdeal.Stages.colW ei)) = some (ix2 r q)),
          Host.gather Cert.KernelIdeal.gather_S100000x128_S1700000x1_S1700000x128_1_0_n_n_0_1_1128 hs (Cert.KernelIdeal.Stages.wrapT (Cert.KernelIdeal.Stages.rowW ei)) u * D := by
  unfold Cert.KernelIdeal.Stages.aggT
  rw [scatterAdd_apply, zeros2_apply]
  exact zero_add_sum_mul _ _ D h0 ht

/-- The reference's accumulated entry (r, q), before the bias. -/
theorem accR_apply (x : FVec Ideal Cert.ReferenceIdeal.S100000x128 .f32) (ei : IVec Cert.ReferenceIdeal.S2x1600000 32) (W : FVec Ideal Cert.ReferenceIdeal.S128x128 .f32)
    (b : FVec Ideal Cert.ReferenceIdeal.S128 .f32) (r : Fin 100000) (q : Fin 128) :
    Cert.ReferenceIdeal.Stages.preT x ei W b (ix2 r q)
      = (Z32 + ∑ u ∈ Finset.univ.filter (fun u => Cert.KernelIdeal.scatter_S100000x128_S1700000x1_S1700000x128_1_0_0_1.resultIdx? u
            (broadcastInDim Cert.KernelIdeal.S1700000x1 ![0] Cert.KernelIdeal.Facts₀.bcast_S1700000_S1700000x1_0 (Cert.KernelIdeal.Stages.colW ei)) = some (ix2 r q)),
          Cert.ReferenceIdeal.Stages.msgT x ei W u) + b (ix1 q) := by
  unfold Cert.ReferenceIdeal.Stages.preT
  rw [addf_apply, biasR_apply, Cert.ReferenceIdeal.Stages.colW_eq, scat_eq, scatterAdd_apply, zeros2_apply]

/-! ## The two results -/

/-- THE BRIDGE: the kernel program's result is the reference's, entry by entry. -/
theorem kernelOut_eq_refOut (x : FVec Ideal Cert.KernelIdeal.S100000x128 .f32) (ei : IVec Cert.KernelIdeal.S2x1600000 32) (W : FVec Ideal Cert.KernelIdeal.S128x128 .f32)
    (b : FVec Ideal Cert.KernelIdeal.S128 .f32) :
    Cert.KernelIdeal.Stages.kernelOut x ei W b = Cert.ReferenceIdeal.Stages.refOut x ei W b := by
  funext i
  obtain ⟨r, q, rfl⟩ : ∃ (r : Fin 100000) (q : Fin 128), i = ix2 r q := ⟨i 0, i 1, eq_ix2 i⟩
  unfold Cert.KernelIdeal.Stages.kernelOut Cert.ReferenceIdeal.Stages.refOut
  rw [G1_apply, actT_apply, actK_eq_actR]
  refine congrArg actR ?_
  obtain ⟨hD0, hDt⟩ := dinvT_bounds ei (ix1 r)
  rw [biasK_apply, dcolT_apply, accR_apply, aggT_mul _ ei r q _ hD0 hDt]
  refine congrArg (· + b (ix1 q)) (congrArg (Z32 + ·) (Finset.sum_congr rfl fun u hu => ?_))
  obtain ⟨e, c, rfl⟩ : ∃ (e : Fin 1700000) (c : Fin 128), u = ix2 e c := ⟨u 0, u 1, eq_ix2 u⟩
  have hland := (Finset.mem_filter.mp hu).2
  obtain ⟨hcl, hnn⟩ := lands _ e c (ix2 r q) hland
  rw [colB_apply] at hcl hnn
  -- the destination's wrapped and clamped word is r
  have hγ : clampRow 100000 (Cert.KernelIdeal.Stages.wrapT (Cert.KernelIdeal.Stages.colW ei) (ix2 e 0)) = r.val := by
    rw [wrapT_apply, wrap_of_nonneg _ hnn]; exact hcl
  have hγ' : (⟨clampRow 100000 (Cert.KernelIdeal.Stages.wrapT (Cert.KernelIdeal.Stages.colW ei) (ix2 e 0)), clampRow_lt (by decide) _⟩ : Fin 100000) = r := Fin.ext hγ
  rw [updK_apply, msgT_apply, hγ', mul_assoc]

end Cert.Gcn.Bridge

end
-- ==== Proof.lean ====
/-
  A graph convolution with symmetric degree normalisation followed by the activation x · tanh (softplus x), as two
  grid kernels around a gather and an accumulation, against the plain formulation.

  With d the normalisation of every node (the inverse root of its in-degree counted with a self loop, zero where the
  degree is not positive) and h = x · W, the reference computes, for node r and column q,

      activation ( (sum over the edges e into r of  h (src e, q) · (d (src e) · d (dst e)))  +  b q ),

  and the kernel program computes

      activation ( (sum over the edges e into r of  (h (src e, q) · d (src e))) · d r  +  b q ).

  An edge goes into r exactly when its destination word reads as r, so d (dst e) = d r in every term; d r is a
  non-negative number that is not +infinity, whatever the degree, so it distributes over the sum of extended reals;
  multiplication of extended reals is associative.  The two activations are one function.  Nothing is asked of the
  float inputs: the identity holds at every extended real.

  The three programs run (terminate without a fault, leaving their arguments as launched): the two kernel programs by
  the generated proofs of their frames, the reference by its run read back.  The idealisation rewrote no operation of the kernel
  program, so there is nothing to preserve.
-/
import proofs.«111637_j953482739902_2_alg».proof.Defs
import proofs.«111637_j953482739902_2_alg».proof.Proof.Gen.Kernel
import proofs.«111637_j953482739902_2_alg».proof.Proof.Gen.Kernel.Skeleton
import proofs.«111637_j953482739902_2_alg».proof.Proof.Gen.Kernel.Launch
import proofs.«111637_j953482739902_2_alg».proof.Proof.Gen.Kernel.Points
import proofs.«111637_j953482739902_2_alg».proof.Proof.Gen.Kernel.Frame
import proofs.«111637_j953482739902_2_alg».proof.Proof.Gen.KernelIdeal
import proofs.«111637_j953482739902_2_alg».proof.Proof.Gen.KernelIdeal.Skeleton
import proofs.«111637_j953482739902_2_alg».proof.Proof.Gen.KernelIdeal.Launch
import proofs.«111637_j953482739902_2_alg».proof.Proof.Gen.KernelIdeal.Points
import proofs.«111637_j953482739902_2_alg».proof.Proof.Gen.KernelIdeal.Frame
import proofs.«111637_j953482739902_2_alg».proof.Proof.Gen.ReferenceIdeal
import proofs.«111637_j953482739902_2_alg».proof.Proof.Gen.Pre_finite_inputs
import proofs.«111637_j953482739902_2_alg».proof.Proof.RefRun
import proofs.«111637_j953482739902_2_alg».proof.Proof.RefStages
import proofs.«111637_j953482739902_2_alg».proof.Proof.KernelRun
import proofs.«111637_j953482739902_2_alg».proof.Proof.KernelValue
import proofs.«111637_j953482739902_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Over the extended reals the kernel program's result array ends at the staged composition of its arguments, the
    reference's at its own, of arguments that agree; the two compositions are one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Stages.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KValue.kernel_value m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Stages.res_eq, (hagree c).1, (hagree c).2.1, (hagree c).2.2.1, (hagree c).2.2.2]
    exact (Cert.Gcn.Bridge.kernelOut_eq_refOut _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
